-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  main_v8
-- ==== Kernel.lean ====
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S64x2048x64, .f32⟩
  | .hbm, ⟨3, _⟩ => ⟨S64x2048x64, .f32⟩
  | .hbm, ⟨4, _⟩ => ⟨S64x2048x64, .f32⟩
  | .hbm, ⟨5, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x2048, .f32⟩
  | .hbm, ⟨3, _⟩ => ⟨S_, .f32⟩
  | .hbm, ⟨4, _⟩ => ⟨S4x16x2048x2048, .f32⟩
  | .hbm, ⟨5, _⟩ => ⟨S4x16x2048x2048, .f32⟩
  | .hbm, ⟨6, _⟩ => ⟨S_, .f32⟩
  | .hbm, ⟨7, _⟩ => ⟨S4x16x2048, .f32⟩
  | .hbm, ⟨8, _⟩ => ⟨S_, .f32⟩
  | .hbm, ⟨9, _⟩ => ⟨S4x16x2048, .f32⟩
  | .hbm, ⟨10, _⟩ => ⟨S4x16x2048, .f32⟩
  | .hbm, ⟨11, _⟩ => ⟨S4x16x2048x1, .f32⟩
  | .hbm, ⟨12, _⟩ => ⟨S4x16x2048x2048, .f32⟩
  | .hbm, ⟨13, _⟩ => ⟨S4x16x2048x2048, .f32⟩
  | .hbm, ⟨14, _⟩ => ⟨S4x16x2048x2048, .f32⟩
  | .hbm, ⟨15, _⟩ => ⟨S_, .f32⟩
  | .hbm, ⟨16, _⟩ => ⟨S4x16x2048, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelBody.lean ====
/-
  The kernel's body and the proof data of its one pipeline, at any float instance.

  The pipeline has four windows on a 64 × 4 grid: the query block (window 0: 512 rows of head `b`), the key block
  (window 1: all 2048 rows of head `b` of the second argument), the value block (window 2: all 2048 rows of head
  `b` of the FIRST argument again) and the output block (window 3: 512 rows). Windows 0 and 2 read the same array,
  so the array's full share is dealt between them: window 0 holds its left half, window 2 its right half; both
  only read. The body loads the three input blocks whole, loads the output block (and drops it), and stores one
  value — the payload — over the whole output block; so after the body each input buffer holds its block and the
  output buffer holds the payload of the three blocks.
-/
import proofs.«102888_j52518860096471_2_alg».proof.Proof.Gen.Kernel.Launch
import proofs.«102888_j52518860096471_2_alg».proof.Proof.Gen.Kernel.Skeleton
import proofs.«102888_j52518860096471_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and the last reshape: it reduces to the region continued by the
    last reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (where it is not
    fetched the block index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- The output buffer after the body: the one store, over the whole block, of the payload of the three loaded blocks. -/
def outBlk (x0 : Vec F S1x512x64 .f32) (x1 x2 : Vec F S1x2048x64 .f32) : Vec F S1x512x64 .f32 :=
  View.canon [⟨rQ, k0_pay1 (View.ld x0 rQ) (View.ld x1 rKV) (View.ld x2 rKV)⟩]

/-- The one store covers the buffer. -/
theorem cover_out (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's triple -/

set_option maxHeartbeats 1000000 in
/-- On whole staging memrefs, the inputs' at contents `x0 x1 x2` and the output's at anything, the body runs to its
    continuation with the inputs' as they were and the output's at `outBlk x0 x1 x2`. -/
theorem sound_kernel (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x512x64 .f32) (harg5 : arg5.IsWhole)
    (x0 : Vec F S1x512x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data on core `c`: the arrays as the region finds them; after the body at point `t` each input buffer
    at its block and the output buffer at `outBlk` of the three blocks; the invariant the scoped rest and the
    generator register, untouched; nothing owed; of the array windows 0 and 2 share, the left half to window 0 and
    the right half to window 2, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of the whole program, at any float instance: the two reshapes, the region, the last reshape.

  At the region's entry the three distinct arrays behind the four windows are held whole. The array that the query
  window and the value window both read is split along its share — left half to the query window, right half to the
  value window — and the other two arrays go to their windows whole. After the last grid point the input arrays are
  as they were and the output array holds every point's block written back. The last reshape then reads the output
  array and writes the result buffer; nothing else is touched, so both arguments end as launched.
-/
import proofs.«102888_j52518860096471_2_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The pipeline's arrays at contents `A`: the shared array twice, at the two halves of its share. -/
theorem arrays_eq (c : Dev nD) (A : (w : Fin cfg0.W) → Buf (Elt F) ((cfg0.win w).arr.view.loc (c.tc : Thread nD τ))) :
    ((dats m 0 c).arrays A : sProp 𝕄) = iprop(
        (((c : Thread nD τ).loc main_v0) ↦{fullShare.left} A 0) ∗ (((c : Thread nD τ).loc main_v1) ↦{fullShare} A 1)
        ∗ (((c : Thread nD τ).loc main_v0) ↦{fullShare.right} A 2) ∗ (((c : Thread nD τ).loc main_v2) ↦{fullShare} A 3)) := by
  unfold Dat.arrays
  rw [bigSep_W0, (arr_whole0 0).set_eq_univ, (arr_whole0 1).set_eq_univ, (arr_whole0 3).set_eq_univ]
  have s0 : (dats m 0 c).share 0 = fullShare.left := by unfold Dat.share; rfl
  have s1 : (dats m 0 c).share 1 = fullShare := by unfold Dat.share; rfl
  have s2 : (dats m 0 c).share 2 = fullShare.right := by unfold Dat.share; rfl
  have s3 : (dats m 0 c).share 3 = fullShare := by unfold Dat.share; rfl
  rw [s0, s1, s2, s3]

/-! ## Entry: the three buffers behind the windows become the four windows' arrays -/

/-- At the region's entry the shared array's full share is split between the two windows that read it. -/
theorem arrays_entry (c : Dev nD) :
    (Pipeline.arrBufs spec0 c (V m c) : sProp 𝕄) ⊢ (dats m 0 c).arrays ((dats m 0 c).arrAt · 0) := by
  rw [arrays_eq]
  unfold Pipeline.arrBufs
  rw [bigSep_eq_bigSepL_of_eq [main_v0, main_v1, main_v2] (by decide) (by decide)]
  show iprop((((c : Thread nD τ).loc main_v0) ↦{fullShare} V m c main_v0) ∗ (((c : Thread nD τ).loc main_v1) ↦{fullShare} V m c main_v1)
      ∗ (((c : Thread nD τ).loc main_v2) ↦{fullShare} V m c main_v2)) ⊢ _
  iintro ⟨H0, H1, H2⟩
  ihave H0' := (pointsTo_share (PosShare.mem_left_op_right fullShare)).1 $$ H0
  icases H0' with ⟨H0l, H0r⟩
  isplitl [H0l]; · iexact H0l
  isplitl [H1]; · iexact H1
  isplitl [H0r]; · iexact H0r
  iexact H2

/-! ## The last reshape -/

/-- The two buffers the last reshape touches: the output array and the result buffer. -/
abbrev lastRefs : Finset (DevRef τ sig) := {Proc.devRef .tc main_v2, Proc.devRef .tc main_v3}

open Classical in
/-- The contents the last reshape runs from: the output array as the region left it, every other buffer as at entry. -/
def exitVal (c : Dev nD) : Valuation τ sig (Elt F) :=
  Function.update (V0 m c) (Proc.devRef .tc main_v2) ((dats m 0 c).arrAt 3 cfg0.N)

/-- The result buffer at the end of the program: the last reshape of the output array. -/
def result (c : Dev nD) : Buf (Elt F) ((c : Thread nD τ).loc main_v3) :=
  StableHlo.after (List.flatten [hostOps1]) (exitVal m c) (Proc.devRef .tc main_v3)

theorem exitVal_v2 (c : Dev nD) : exitVal m c (Proc.devRef .tc main_v2) = (dats m 0 c).arrAt 3 cfg0.N := by
  unfold exitVal; exact Function.update_self ..
theorem exitVal_v3 (c : Dev nD) : exitVal m c (Proc.devRef .tc main_v3) = V m c main_v3 := by
  unfold exitVal; exact Function.update_of_ne (StableHlo.devRef_ne_of_ne (by decide)) ..

/-- The last reshape does not write the output array. -/
theorem after_v2 (c : Dev nD) :
    StableHlo.after (List.flatten [hostOps1]) (exitVal m c) (Proc.devRef .tc main_v2) = (dats m 0 c).arrAt 3 cfg0.N :=
  (StableHlo.after_of_forall_not_mem (b := Proc.devRef .tc main_v2) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide)))).trans (exitVal_v2 m c)

/-- The two buffers held at a valuation, one by one. -/
theorem held_last (c : Dev nD) (W : Valuation τ sig (Elt F)) :
    (StableHlo.held (c.tc : Thread nD τ) lastRefs W : sProp 𝕄)
      = iprop((((c : Thread nD τ).loc main_v2) ↦{fullShare} W (Proc.devRef .tc main_v2))
          ∗ (((c : Thread nD τ).loc main_v3) ↦{fullShare} W (Proc.devRef .tc main_v3))) := by
  unfold StableHlo.held
  rw [bigSep_eq_bigSepL_of_eq [Proc.devRef .tc main_v2, Proc.devRef .tc main_v3] (by decide) (by decide)]
  rfl

theorem last_sub : ∀ ops ∈ ([hostOps1] : List (List (HloOp τ sig (Elt F)))), ∀ op ∈ ops, op.bufs ⊆ lastRefs := by
  intro ops hops op hop
  simp only [List.mem_cons, List.mem_nil_iff, or_false] at hops
  subst hops
  simp only [hostOps1, List.mem_cons, List.mem_nil_iff, or_false] at hop
  subst hop
  rw [StableHlo.reshape_bufs]
theorem last_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffers that bypass the region, before the last reshape … -/
def restIn (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v3) ↦{fullShare} V m c main_v3))
/-- … and after it: the result buffer written. -/
def restOut (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v3) ↦{fullShare} result m c))

set_option backward.isDefEq.respectTransparency.types false in
/-- From the region's exit the last reshape runs within the output array and the result buffer, and hands back the
    arrays as they were and the result buffer at `result`. -/
theorem last_reshape (𝒱₀ : Variants) (c : Dev nD) (Q' : PUnit → sProp 𝕄) :
    iprop((iprop((dats m 0 c).arrays ((dats m 0 c).arrAt · cfg0.N) ∗ restOut m c) -∗ Q' ⟨⟩)
        ∗ boundary (c.tc : Thread nD τ) ∗ (dats m 0 c).arrays ((dats m 0 c).arrAt · cfg0.N) ∗ restIn m c)
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  rw [arrays_eq]
  unfold restIn restOut
  show _ ⊢ wp frame _ Set.univ (Pipeline.chain (([hostOps1] : List (List (HloOp τ sig (Elt F)))).map StableHlo.seq ++ [])) Q'
  have hret : iprop(|={Set.univ}=> Q' ⟨⟩)
      ⊢ wp frame (wpE (Pipeline.defs (fun q => Cfg.toPCfg (Val := Elt F) (cfgs q)) defs₀) (Variants.lift 𝒱₀) (c.tc : Thread nD τ) none) Set.univ
          (Pipeline.chain []) Q' := by rw [Pipeline.chain_nil, wp_pure]
  have hpost : iprop(boundary (c.tc : Thread nD τ)
        ∗ (StableHlo.held (c.tc : Thread nD τ) lastRefs (StableHlo.after (List.flatten [hostOps1]) (exitVal m c)) : sProp 𝕄))
      ⊢ iprop((((c : Thread nD τ).loc main_v2) ↦{fullShare} (dats m 0 c).arrAt 3 cfg0.N) ∗ (((c : Thread nD τ).loc main_v3) ↦{fullShare} result m c)) := by
    rw [held_last, after_v2]; unfold result
    iintro ⟨-, H⟩; iexact H
  iintro ⟨Hk, Hb, ⟨Ha0, Ha1, Ha2, Ha3⟩, ⟨Hz0, Hz1, Hz3⟩⟩
  ihave Hh : (StableHlo.held (c.tc : Thread nD τ) lastRefs (exitVal m c) : sProp 𝕄) $$ [Ha3 Hz3]
  · rw [held_last, exitVal_v2, exitVal_v3]
    isplitl [Ha3]; · iexact Ha3
    iexact Hz3
  iapply (Pipeline.wp_seqs_then (fun q => Cfg.toPCfg (Val := Elt F) (cfgs q)) defs₀ 𝒱₀ c lastRefs [] [hostOps1] last_sub last_fresh (exitVal m c)) $$ [Hb Hh]
  · isplitl [Hb]; · iexact Hb
    iexact Hh
  iintro H
  iapply hret
  imodintro
  iapply Hk
  ihave H' := hpost $$ H
  icases H' with ⟨Hv2, Hv3⟩
  isplitl [Ha0 Ha1 Ha2 Hv2]
  · isplitl [Ha0]; · iexact Ha0
    isplitl [Ha1]; · iexact Ha1
    isplitl [Ha2]; · iexact Ha2
    iexact Hv2
  isplitl [Hz0]; · iexact Hz0
  isplitl [Hz1]; · iexact Hz1
  iexact Hv3

/-! ## The run -/

set_option backward.isDefEq.respectTransparency.types false in
/-- At the compiled mesh, from any memory with zero counters: every weakly fair execution of the program on the
    TensorCores terminates, nothing faulting, and at the end the result buffer holds `result` — the last reshape of
    the output array with every point's block written back — and both arguments are as launched. -/
theorem run_main : θ_run defs (onTc (τ := τ) (main (F := F))) (s₀ m ρ) (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := restIn m) (Z' := restOut m)
    (hX := fun c => by
      rw [Pipeline.unscopedRestP_none, unscopedRest0_eq]
      iintro ⟨HU, -, -, -, Hp, -⟩; imodintro
      isplitl [Hp]; · iexists _; iexact Hp
      unfold restIn; iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => last_reshape m Variants.none c Q')
    (QY := fun c s => s.mem ((c.tc : Thread nD τ).loc main_arg0) = V m c main_arg0
      ∧ s.mem ((c.tc : Thread nD τ).loc main_arg1) = V m c main_arg1
      ∧ s.mem ((c.tc : Thread nD τ).loc main_v3) = result m c)
    (hY := fun c s' => by
      unfold restOut
      iintro ⟨-, ⟨H0, H1, H3⟩, HSI⟩
      icombine HSI H0 gives %h0
      icombine HSI H1 gives %h1
      icombine HSI H3 gives %h3
      imodintro
      isplitr
      · ipureintro; exact ⟨Buf.eq_of_forall_mem_univ h0, Buf.eq_of_forall_mem_univ h1, Buf.eq_of_forall_mem_univ h3⟩
      iexact HSI)
    (hQ := fun s h c => ⟨(h c).2.2.2.2, (h c).2.2.1.trans (V_main_arg0 m c), (h c).2.2.2.1.trans (V_main_arg1 m c)⟩)

/-- The frame: the program runs to the end and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KernelIdealBody.lean ====
/-
  The kernel's body and the proof data of its one pipeline, at any float instance.

  The pipeline has four windows on a 64 × 4 grid: the query block (window 0: 512 rows of head `b`), the key block
  (window 1: all 2048 rows of head `b` of the second argument), the value block (window 2: all 2048 rows of head
  `b` of the FIRST argument again) and the output block (window 3: 512 rows). Windows 0 and 2 read the same array,
  so the array's full share is dealt between them: window 0 holds its left half, window 2 its right half; both
  only read. The body loads the three input blocks whole, loads the output block (and drops it), and stores one
  value — the payload — over the whole output block; so after the body each input buffer holds its block and the
  output buffer holds the payload of the three blocks.
-/
import proofs.«102888_j52518860096471_2_alg».proof.Proof.Gen.KernelIdeal.Launch
import proofs.«102888_j52518860096471_2_alg».proof.Proof.Gen.KernelIdeal.Skeleton
import proofs.«102888_j52518860096471_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the two reshapes, the region, and the last reshape: it reduces to the region continued by the
    last reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (where it is not
    fetched the block index has not moved), for any proof data on these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- The output buffer after the body: the one store, over the whole block, of the payload of the three loaded blocks. -/
def outBlk (x0 : Vec F S1x512x64 .f32) (x1 x2 : Vec F S1x2048x64 .f32) : Vec F S1x512x64 .f32 :=
  View.canon [⟨rQ, k0_pay1 (View.ld x0 rQ) (View.ld x1 rKV) (View.ld x2 rKV)⟩]

/-- The one store covers the buffer. -/
theorem cover_out (p0 : Vec F S1x512x64 .f32) (y : S1x512x64.Idx) :
    ∃ pc ∈ ([⟨rQ, p0⟩] : List (View.Piece (Elt F) S1x512x64 .f32)), y ∈ pc.1.set :=
  View.cover_of_tiled [⟨rQ, p0⟩] S1x512x64.size (by rfl) y

/-! ## The body's triple -/

set_option maxHeartbeats 1000000 in
/-- On whole staging memrefs, the inputs' at contents `x0 x1 x2` and the output's at anything, the body runs to its
    continuation with the inputs' as they were and the output's at `outBlk x0 x1 x2`. -/
theorem sound_kernel (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x512x64 .f32) (harg5 : arg5.IsWhole)
    (x0 : Vec F S1x512x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data on core `c`: the arrays as the region finds them; after the body at point `t` each input buffer
    at its block and the output buffer at `outBlk` of the three blocks; the invariant the scoped rest and the
    generator register, untouched; nothing owed; of the array windows 0 and 2 share, the left half to window 0 and
    the right half to window 2, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q w := match w with
    | ⟨0, _⟩ => fullShare.left
    | ⟨1, _⟩ => fullShare
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of the whole program, at any float instance: the two reshapes, the region, the last reshape.

  At the region's entry the three distinct arrays behind the four windows are held whole. The array that the query
  window and the value window both read is split along its share — left half to the query window, right half to the
  value window — and the other two arrays go to their windows whole. After the last grid point the input arrays are
  as they were and the output array holds every point's block written back. The last reshape then reads the output
  array and writes the result buffer; nothing else is touched, so both arguments end as launched.
-/
import proofs.«102888_j52518860096471_2_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The pipeline's arrays at contents `A`: the shared array twice, at the two halves of its share. -/
theorem arrays_eq (c : Dev nD) (A : (w : Fin cfg0.W) → Buf (Elt F) ((cfg0.win w).arr.view.loc (c.tc : Thread nD τ))) :
    ((dats m 0 c).arrays A : sProp 𝕄) = iprop(
        (((c : Thread nD τ).loc main_v0) ↦{fullShare.left} A 0) ∗ (((c : Thread nD τ).loc main_v1) ↦{fullShare} A 1)
        ∗ (((c : Thread nD τ).loc main_v0) ↦{fullShare.right} A 2) ∗ (((c : Thread nD τ).loc main_v2) ↦{fullShare} A 3)) := by
  unfold Dat.arrays
  rw [bigSep_W0, (arr_whole0 0).set_eq_univ, (arr_whole0 1).set_eq_univ, (arr_whole0 3).set_eq_univ]
  have s0 : (dats m 0 c).share 0 = fullShare.left := by unfold Dat.share; rfl
  have s1 : (dats m 0 c).share 1 = fullShare := by unfold Dat.share; rfl
  have s2 : (dats m 0 c).share 2 = fullShare.right := by unfold Dat.share; rfl
  have s3 : (dats m 0 c).share 3 = fullShare := by unfold Dat.share; rfl
  rw [s0, s1, s2, s3]

/-! ## Entry: the three buffers behind the windows become the four windows' arrays -/

/-- At the region's entry the shared array's full share is split between the two windows that read it. -/
theorem arrays_entry (c : Dev nD) :
    (Pipeline.arrBufs spec0 c (V m c) : sProp 𝕄) ⊢ (dats m 0 c).arrays ((dats m 0 c).arrAt · 0) := by
  rw [arrays_eq]
  unfold Pipeline.arrBufs
  rw [bigSep_eq_bigSepL_of_eq [main_v0, main_v1, main_v2] (by decide) (by decide)]
  show iprop((((c : Thread nD τ).loc main_v0) ↦{fullShare} V m c main_v0) ∗ (((c : Thread nD τ).loc main_v1) ↦{fullShare} V m c main_v1)
      ∗ (((c : Thread nD τ).loc main_v2) ↦{fullShare} V m c main_v2)) ⊢ _
  iintro ⟨H0, H1, H2⟩
  ihave H0' := (pointsTo_share (PosShare.mem_left_op_right fullShare)).1 $$ H0
  icases H0' with ⟨H0l, H0r⟩
  isplitl [H0l]; · iexact H0l
  isplitl [H1]; · iexact H1
  isplitl [H0r]; · iexact H0r
  iexact H2

/-! ## The last reshape -/

/-- The two buffers the last reshape touches: the output array and the result buffer. -/
abbrev lastRefs : Finset (DevRef τ sig) := {Proc.devRef .tc main_v2, Proc.devRef .tc main_v3}

open Classical in
/-- The contents the last reshape runs from: the output array as the region left it, every other buffer as at entry. -/
def exitVal (c : Dev nD) : Valuation τ sig (Elt F) :=
  Function.update (V0 m c) (Proc.devRef .tc main_v2) ((dats m 0 c).arrAt 3 cfg0.N)

/-- The result buffer at the end of the program: the last reshape of the output array. -/
def result (c : Dev nD) : Buf (Elt F) ((c : Thread nD τ).loc main_v3) :=
  StableHlo.after (List.flatten [hostOps1]) (exitVal m c) (Proc.devRef .tc main_v3)

theorem exitVal_v2 (c : Dev nD) : exitVal m c (Proc.devRef .tc main_v2) = (dats m 0 c).arrAt 3 cfg0.N := by
  unfold exitVal; exact Function.update_self ..
theorem exitVal_v3 (c : Dev nD) : exitVal m c (Proc.devRef .tc main_v3) = V m c main_v3 := by
  unfold exitVal; exact Function.update_of_ne (StableHlo.devRef_ne_of_ne (by decide)) ..

/-- The last reshape does not write the output array. -/
theorem after_v2 (c : Dev nD) :
    StableHlo.after (List.flatten [hostOps1]) (exitVal m c) (Proc.devRef .tc main_v2) = (dats m 0 c).arrAt 3 cfg0.N :=
  (StableHlo.after_of_forall_not_mem (b := Proc.devRef .tc main_v2) _ _ (List.forall_iff_forall_mem.mp (by
    simp only [hostOps1, List.flatten_cons, List.flatten_nil, List.append_nil, List.cons_append,
      List.nil_append, List.Forall, StableHlo.reshape_writes, Finset.mem_singleton]
    exact StableHlo.devRef_ne_of_ne (by decide)))).trans (exitVal_v2 m c)

/-- The two buffers held at a valuation, one by one. -/
theorem held_last (c : Dev nD) (W : Valuation τ sig (Elt F)) :
    (StableHlo.held (c.tc : Thread nD τ) lastRefs W : sProp 𝕄)
      = iprop((((c : Thread nD τ).loc main_v2) ↦{fullShare} W (Proc.devRef .tc main_v2))
          ∗ (((c : Thread nD τ).loc main_v3) ↦{fullShare} W (Proc.devRef .tc main_v3))) := by
  unfold StableHlo.held
  rw [bigSep_eq_bigSepL_of_eq [Proc.devRef .tc main_v2, Proc.devRef .tc main_v3] (by decide) (by decide)]
  rfl

theorem last_sub : ∀ ops ∈ ([hostOps1] : List (List (HloOp τ sig (Elt F)))), ∀ op ∈ ops, op.bufs ⊆ lastRefs := by
  intro ops hops op hop
  simp only [List.mem_cons, List.mem_nil_iff, or_false] at hops
  subst hops
  simp only [hostOps1, List.mem_cons, List.mem_nil_iff, or_false] at hop
  subst hop
  rw [StableHlo.reshape_bufs]
theorem last_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffers that bypass the region, before the last reshape … -/
def restIn (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v3) ↦{fullShare} V m c main_v3))
/-- … and after it: the result buffer written. -/
def restOut (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v3) ↦{fullShare} result m c))

set_option backward.isDefEq.respectTransparency.types false in
/-- From the region's exit the last reshape runs within the output array and the result buffer, and hands back the
    arrays as they were and the result buffer at `result`. -/
theorem last_reshape (𝒱₀ : Variants) (c : Dev nD) (Q' : PUnit → sProp 𝕄) :
    iprop((iprop((dats m 0 c).arrays ((dats m 0 c).arrAt · cfg0.N) ∗ restOut m c) -∗ Q' ⟨⟩)
        ∗ boundary (c.tc : Thread nD τ) ∗ (dats m 0 c).arrays ((dats m 0 c).arrAt · cfg0.N) ∗ restIn m c)
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  rw [arrays_eq]
  unfold restIn restOut
  show _ ⊢ wp frame _ Set.univ (Pipeline.chain (([hostOps1] : List (List (HloOp τ sig (Elt F)))).map StableHlo.seq ++ [])) Q'
  have hret : iprop(|={Set.univ}=> Q' ⟨⟩)
      ⊢ wp frame (wpE (Pipeline.defs (fun q => Cfg.toPCfg (Val := Elt F) (cfgs q)) defs₀) (Variants.lift 𝒱₀) (c.tc : Thread nD τ) none) Set.univ
          (Pipeline.chain []) Q' := by rw [Pipeline.chain_nil, wp_pure]
  have hpost : iprop(boundary (c.tc : Thread nD τ)
        ∗ (StableHlo.held (c.tc : Thread nD τ) lastRefs (StableHlo.after (List.flatten [hostOps1]) (exitVal m c)) : sProp 𝕄))
      ⊢ iprop((((c : Thread nD τ).loc main_v2) ↦{fullShare} (dats m 0 c).arrAt 3 cfg0.N) ∗ (((c : Thread nD τ).loc main_v3) ↦{fullShare} result m c)) := by
    rw [held_last, after_v2]; unfold result
    iintro ⟨-, H⟩; iexact H
  iintro ⟨Hk, Hb, ⟨Ha0, Ha1, Ha2, Ha3⟩, ⟨Hz0, Hz1, Hz3⟩⟩
  ihave Hh : (StableHlo.held (c.tc : Thread nD τ) lastRefs (exitVal m c) : sProp 𝕄) $$ [Ha3 Hz3]
  · rw [held_last, exitVal_v2, exitVal_v3]
    isplitl [Ha3]; · iexact Ha3
    iexact Hz3
  iapply (Pipeline.wp_seqs_then (fun q => Cfg.toPCfg (Val := Elt F) (cfgs q)) defs₀ 𝒱₀ c lastRefs [] [hostOps1] last_sub last_fresh (exitVal m c)) $$ [Hb Hh]
  · isplitl [Hb]; · iexact Hb
    iexact Hh
  iintro H
  iapply hret
  imodintro
  iapply Hk
  ihave H' := hpost $$ H
  icases H' with ⟨Hv2, Hv3⟩
  isplitl [Ha0 Ha1 Ha2 Hv2]
  · isplitl [Ha0]; · iexact Ha0
    isplitl [Ha1]; · iexact Ha1
    isplitl [Ha2]; · iexact Ha2
    iexact Hv2
  isplitl [Hz0]; · iexact Hz0
  isplitl [Hz1]; · iexact Hz1
  iexact Hv3

/-! ## The run -/

set_option backward.isDefEq.respectTransparency.types false in
/-- At the compiled mesh, from any memory with zero counters: every weakly fair execution of the program on the
    TensorCores terminates, nothing faulting, and at the end the result buffer holds `result` — the last reshape of
    the output array with every point's block written back — and both arguments are as launched. -/
theorem run_main : θ_run defs (onTc (τ := τ) (main (F := F))) (s₀ m ρ) (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (Pipeline.cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () hinj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ hinj) (Pipeline.launchToks _ hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_entry m)
    (hpf := fun _ k => k.elim0)
    (X := fun c => iprop(∃ r, prngReg c r)) (Y := fun c => iprop(∃ r, prngReg c r))
    (Z := restIn m) (Z' := restOut m)
    (hX := fun c => by
      rw [Pipeline.unscopedRestP_none, unscopedRest0_eq]
      iintro ⟨HU, -, -, -, Hp, -⟩; imodintro
      isplitl [Hp]; · iexists _; iexact Hp
      unfold restIn; iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => last_reshape m Variants.none c Q')
    (QY := fun c s => s.mem ((c.tc : Thread nD τ).loc main_arg0) = V m c main_arg0
      ∧ s.mem ((c.tc : Thread nD τ).loc main_arg1) = V m c main_arg1
      ∧ s.mem ((c.tc : Thread nD τ).loc main_v3) = result m c)
    (hY := fun c s' => by
      unfold restOut
      iintro ⟨-, ⟨H0, H1, H3⟩, HSI⟩
      icombine HSI H0 gives %h0
      icombine HSI H1 gives %h1
      icombine HSI H3 gives %h3
      imodintro
      isplitr
      · ipureintro; exact ⟨Buf.eq_of_forall_mem_univ h0, Buf.eq_of_forall_mem_univ h1, Buf.eq_of_forall_mem_univ h3⟩
      iexact HSI)
    (hQ := fun s h c => ⟨(h c).2.2.2.2, (h c).2.2.1.trans (V_main_arg0 m c), (h c).2.2.2.1.trans (V_main_arg1 m c)⟩)

/-- The frame: the program runs to the end and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KernelIdealHost.lean ====
/-
  What the reshapes around the region leave, at any float instance.

  Before the region the program views each [4, 16, 2048, 64] argument as [64, 2048, 64]; after it, it views the
  [64, 2048, 64] result as [4, 16, 2048, 64]. So the region finds, at the two flat buffers, the row-major re-reading
  of the two arguments as launched, and the program's last buffer ends as the row-major re-reading of whatever the
  region's result buffer holds.
-/
import proofs.«102888_j52518860096471_2_alg».proof.Proof.KernelIdealBody
import Idealize.ShloMosaic.Lib.StableHlo.Run

noncomputable section

namespace Cert.KernelIdeal.HostRead

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-- The first flat buffer as the region finds it: the first argument as launched, re-read as 64 heads. -/
theorem entry_v0 (m : (ℓ : Loc nD τ sig) → Buf (Elt F) ℓ) (c : Dev nD) :
    (V (F := F) m c main_v0 : S64x2048x64.Idx → Elt F .f32)
      = shapeCast S64x2048x64 (m ((c : Thread nD τ).loc main_arg0)) shapeCasts_S4x16x2048x64_S64x2048x64 := by
  show StableHlo.after hostOps0 (fun b => m (c, b)) (Proc.devRef .tc main_v0) = _
  after_results
  rfl

/-- The second flat buffer as the region finds it: the second argument as launched, re-read as 64 heads. -/
theorem entry_v1 (m : (ℓ : Loc nD τ sig) → Buf (Elt F) ℓ) (c : Dev nD) :
    (V (F := F) m c main_v1 : S64x2048x64.Idx → Elt F .f32)
      = shapeCast S64x2048x64 (m ((c : Thread nD τ).loc main_arg1)) shapeCasts_S4x16x2048x64_S64x2048x64 := by
  show StableHlo.after hostOps0 (fun b => m (c, b)) (Proc.devRef .tc main_v1) = _
  after_results
  rfl

/-- After the last reshape, from any contents: the last buffer is the region's result buffer re-read as
    [4, 16, 2048, 64]. -/
theorem last_read (W : Valuation τ sig (Elt F)) :
    (StableHlo.after (List.flatten [hostOps1]) W (Proc.devRef .tc main_v3) : S4x16x2048x64.Idx → Elt F .f32)
      = shapeCast S4x16x2048x64 (W (Proc.devRef .tc main_v2)) shapeCasts_S64x2048x64_S4x16x2048x64 := by
  show StableHlo.after hostOps1 W (Proc.devRef .tc main_v3) = _
  after_results
  rfl

end Cert.KernelIdeal.HostRead

end
-- ==== Proof.AttnSpec.lean ====
/-
  Single-pass attention for one query row, over the extended reals.

  For a query row `q` (64 numbers), key rows `K k` (2048 rows of 64) and one value column `v k`
  (2048 numbers), the scaled scores are `s k = (∑ j, q j · K k j) · 3`, the row maximum is `m = max_k s k`
  (taken from −∞), the weights are `w k = exp (s k − m)`, and the result is the weighted mean of `v`.

  Two groupings of the same quotient are stated: `attnK` divides the weighted sum by the weights' total once,
  `attnR` normalises each weight first and sums afterwards (and takes the maximum once more against −∞, and adds
  the total onto a zero). They agree whenever the weights' total is a nonzero real and the summands are real,
  which finite inputs guarantee; that law is proved elsewhere. The float words are kept as words: 3.0 is
  `0x40400000`, −∞ is `0xFF800000`, 0 is `0x00000000`.
-/
import Idealize.ShloMosaic.PureOps.Ideal
import Idealize.ShloMosaic.PureOps.Ideal.Laws

noncomputable section

namespace Cert.Attn

open Idealize.ShloMosaic

/-- The score scale, the f32 word of 3.0. -/
def scale : EReal := Ideal.ofBits .f32 0x40400000#32

/-- −∞, the value every row maximum starts from. -/
def negInf : EReal := Ideal.ofBits .f32 0xFF800000#32

/-- The scaled score of key row `k` against the query row. -/
def score (q : Fin 64 → EReal) (K : Fin 2048 → Fin 64 → EReal) (k : Fin 2048) : EReal :=
  (∑ j : Fin 64, q j * K k j) * scale

/-- The maximum of a row of scores, taken from −∞. -/
def rowMax (s : Fin 2048 → EReal) : EReal :=
  (Finset.univ : Finset (Fin 2048)).fold max negInf s

/-- The unnormalised weight of key `k`: `exp (s k − m)`. -/
def weight (s : Fin 2048 → EReal) (m : EReal) (k : Fin 2048) : EReal := Ideal.exp (s k - m)

/-- Divide once: the weighted sum of the value column over the total weight. -/
def attnK (q : Fin 64 → EReal) (K : Fin 2048 → Fin 64 → EReal) (v : Fin 2048 → EReal) : EReal :=
  Ideal.div (∑ k : Fin 2048, weight (score q K) (rowMax (score q K)) k * v k)
    (∑ k : Fin 2048, weight (score q K) (rowMax (score q K)) k)

/-- Normalise first: each weight over the total (the total added onto a zero, the maximum taken once more
    against −∞), then the sum against the value column. -/
def attnR (q : Fin 64 → EReal) (K : Fin 2048 → Fin 64 → EReal) (v : Fin 2048 → EReal) : EReal :=
  ∑ k : Fin 2048,
    Ideal.div (weight (score q K) (max negInf (rowMax (score q K))) k)
      (Ideal.ofBits .f32 0x00000000#32 + ∑ k' : Fin 2048, weight (score q K) (max negInf (rowMax (score q K))) k') * v k

end Cert.Attn

end
-- ==== Proof.AttnPayload.lean ====
/-
  The attention body's stored value, read one element at a time.

  The body takes a block of 512 query rows, all 2048 key rows and all 2048 value rows (64 numbers each), and stores
  for query row `r` and output column `d` the weighted mean of the value column `d`: the scores of row `r` are the
  contractions of the query row with every key row times 3, the weights are the exponentials of the scores minus the
  row's maximum, and the stored number is the weights' sum against the value column divided by the weights' total.

  Each operation that is not elementwise is read at an index written by coordinates, in a lemma of its own: the
  two contractions as sums over the contracted coordinate, the lane maximum as a fold of `max` and the lane sum as a
  sum over the lane coordinate, the column cast `[512] → [512, 1]` and the two broadcasts of such a column along the
  lanes. The leading unit axis is dropped and put back by the casts `[1, n, 64] → [n, 64]` and
  `[512, 64] → [1, 512, 64]`. Format changes are the identity on extended reals. The last theorem chains them.
-/
import proofs.«102888_j52518860096471_2_alg».proof.Proof.Gen.KernelIdeal.Skeleton
import proofs.«102888_j52518860096471_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPayload

open Idealize.ShloMosaic Idealize.ShloMosaic.ValueIdx Cert.KernelIdeal Cert.KernelIdeal.Gen

/-! ## The two contractions -/

/-- The operand indices of the query–key contraction at result index `i` and contraction index `q`: the query is
    read at `(i 0, q)`, the key at `(i 1, q)`. -/
theorem qk_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The contraction of a query block with a key block over the 64 features (both operands contracted on their
    second axis), into the zero splat: at `(r, k)` the sum over the feature `j` of `q (r, j) · K (k, j)`. -/
theorem qk_apply (q : FVec Ideal S512x64 .bf16) (K : FVec Ideal S2048x64 .bf16) (r : Fin 512) (k : Fin 2048) :
    matmul dot_S512x64_S2048x64_S512x2048_1_1_0_0_n_n none q K (constant (F := Ideal) S512x2048 .f32 0x00000000#32) (ix2 r k)
      = ∑ j : Fin 64, q (ix2 r j) * K (ix2 k j) := by
  refine (Ideal.matmul_constant_zero_apply dot_S512x64_S2048x64_S512x2048_1_1_0_0_n_n none q K (ix2 r k)).trans ?_
  rw [← Equiv.sum_comp (contrEquiv1 dot_S512x64_S2048x64_S512x2048_1_1_0_0_n_n 64 rfl rfl).symm]
  refine Finset.sum_congr rfl fun j _ => ?_
  have hj := contrEquiv1_symm_val dot_S512x64_S2048x64_S512x2048_1_1_0_0_n_n 64 rfl rfl j
  have el : dot_S512x64_S2048x64_S512x2048_1_1_0_0_n_n.lhsIdx (ix2 r k) ((contrEquiv1 dot_S512x64_S2048x64_S512x2048_1_1_0_0_n_n 64 rfl rfl).symm j) = ix2 r j :=
    funext fun a => Fin.ext (by
      match a with
      | ⟨0, _⟩ => exact qk_lhs0 _ _
      | ⟨1, _⟩ => exact (qk_lhs1 _ _).trans hj)
  have er : dot_S512x64_S2048x64_S512x2048_1_1_0_0_n_n.rhsIdx (ix2 r k) ((contrEquiv1 dot_S512x64_S2048x64_S512x2048_1_1_0_0_n_n 64 rfl rfl).symm j) = ix2 k j :=
    funext fun a => Fin.ext (by
      match a with
      | ⟨0, _⟩ => exact qk_rhs0 _ _
      | ⟨1, _⟩ => exact (qk_rhs1 _ _).trans hj)
  rw [el, er]

/-- The operand indices of the weight–value contraction at result index `i` and contraction index `q`: the weights
    are read at `(i 0, q)`, the values at `(q, i 1)`. -/
theorem pv_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The contraction of a weight block with a value block over the 2048 keys (the weights contracted on their second
    axis, the values on their first), into the zero splat: at `(r, d)` the sum over the key `k` of `p (r, k) · V (k, d)`. -/
theorem pv_apply (p : FVec Ideal S512x2048 .bf16) (V : FVec Ideal S2048x64 .bf16) (r : Fin 512) (d : Fin 64) :
    matmul dot_S512x2048_S2048x64_S512x64_1_0_0_1_n_n none p V (constant (F := Ideal) S512x64 .f32 0x00000000#32) (ix2 r d)
      = ∑ k : Fin 2048, p (ix2 r k) * V (ix2 k d) := by
  refine (Ideal.matmul_constant_zero_apply dot_S512x2048_S2048x64_S512x64_1_0_0_1_n_n none p V (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact pv_lhs0 _ _
      | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (pv_rhs0 _ _).trans hk
      | ⟨1, _⟩ => exact pv_rhs1 _ _)
  rw [el, er]

/-! ## The two lane reductions -/

/-- The index of the `[512, 2048]` block over the reduced index `r` with lane coordinate `k` is `(r, k)`. -/
theorem lift_lane (h : S512x2048.Reduces [1] S512) (r : Fin 512) (k : Fin 2048) : h.lift (ix1 r) k = ix2 r k :=
  funext fun a => Fin.ext (by
    match a with
    | ⟨0, _⟩ => rfl
    | ⟨1, _⟩ => rfl)

/-- The maximum along the lanes, started from the word of −∞: at row `r` the fold of `max` from −∞ over the lane
    coordinate `k` of the block at `(r, k)`. -/
theorem laneMax_apply (src : FVec Ideal S512x2048 .f32) (h : S512x2048.Reduces [1] S512) (hφ : FKind.Formats .f32)
    (hacc : (0xFF800000#32 : BitVec 32) = 0xFF800000#32) (r : Fin 512) :
    multiReduction (F := Ideal) .maximumf [1] S512 src 0xFF800000#32 h hφ hacc (ix1 r)
      = (Finset.univ : Finset (Fin 2048)).fold max Cert.Attn.negInf (fun k => src (ix2 r k)) := by
  refine (Ideal.multiReduction_maximumf_single src 0xFF800000#32 h hφ hacc (ix1 r)).trans ?_
  show (Finset.univ : Finset (Fin 2048)).fold max Cert.Attn.negInf (fun k => src (h.lift (ix1 r) k)) = _
  exact congrArg (fun f : Fin 2048 → EReal => (Finset.univ : Finset (Fin 2048)).fold max Cert.Attn.negInf f)
    (funext fun k => congrArg src (lift_lane h r k))

/-- The sum along the lanes, started from the zero word: at row `r` the sum over the lane coordinate `k` of the
    block at `(r, k)`. -/
theorem laneSum_apply (src : FVec Ideal S512x2048 .f32) (h : S512x2048.Reduces [1] S512) (hφ : FKind.Formats .f32)
    (hacc : (0x00000000#32 : BitVec 32) = 0x00000000#32) (r : Fin 512) :
    multiReduction (F := Ideal) .add [1] S512 src 0x00000000#32 h hφ hacc (ix1 r) = ∑ k : Fin 2048, src (ix2 r k) := by
  refine (Ideal.multiReduction_add_single src 0x00000000#32 h hφ hacc (ix1 r)).trans ?_
  exact Finset.sum_congr rfl fun k _ => congrArg src (lift_lane h r k)

/-! ## A row statistic as a column, and the column along the lanes -/

/-- A `[512]` vector cast to a `[512, 1]` column reads, at `(r, u)`, the vector at `r`. -/
theorem column_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A `[512, 1]` column broadcast along 2048 lanes reads, at `(r, k)`, the column at `(r, 0)`. -/
theorem alongKeys_apply {α : Type} (v : S512x1.Idx → α) (h : S512x1.Broadcasts S512x2048) (r : Fin 512) (k : Fin 2048) :
    broadcastTo S512x2048 v h (ix2 r k) = v (ix2 r (0 : Fin 1)) := by
  refine broadcastTo_apply v h (ix2 r k) (ix2 r (0 : Fin 1)) fun ax => ?_
  match ax with
  | ⟨0, _⟩ =>
    show r.val = if (512 : Nat) = 1 then 0 else r.val
    rw [if_neg (by decide)]
  | ⟨1, _⟩ =>
    show 0 = if (1 : Nat) = 1 then 0 else k.val
    rw [if_pos rfl]

/-- A `[512, 1]` column broadcast along 64 lanes reads, at `(r, d)`, the column at `(r, 0)`. -/
theorem alongFeatures_apply {α : Type} (v : S512x1.Idx → α) (h : S512x1.Broadcasts S512x64) (r : Fin 512) (d : Fin 64) :
    broadcastTo S512x64 v h (ix2 r d) = v (ix2 r (0 : Fin 1)) := by
  refine broadcastTo_apply v h (ix2 r d) (ix2 r (0 : Fin 1)) fun ax => ?_
  match ax with
  | ⟨0, _⟩ =>
    show r.val = if (512 : Nat) = 1 then 0 else r.val
    rw [if_neg (by decide)]
  | ⟨1, _⟩ =>
    show 0 = if (1 : Nat) = 1 then 0 else d.val
    rw [if_pos rfl]

/-! ## The body's value, in three steps

The stored value is cut at the two blocks that are used twice: the scaled scores (read by the lane maximum and by the
subtraction) and the weights (read by the lane sum and by the second contraction). -/

/-- The block of scaled scores: the query–key contraction times the splat of 3. -/
def scores (x0 : Vec Ideal S1x512x64 .f32) (x3 : Vec Ideal S1x2048x64 .f32) : FVec Ideal S512x2048 .f32 :=
  mulf
    (matmul dot_S512x64_S2048x64_S512x2048_1_1_0_0_n_n none
      (truncf .bf16 (shapeCast S512x64 x0 shapeCasts_S1x512x64_S512x64) bitsLt_bf16_f32)
      (truncf .bf16 (shapeCast S2048x64 x3 shapeCasts_S1x2048x64_S2048x64) bitsLt_bf16_f32)
      (constant S512x2048 .f32 0x00000000#32))
    (broadcast S512x2048 (Scalar.ofBits .f32 0x40400000#32))

/-- The block of weights: the exponential of the scores minus their row maximum, the maximum taken along the lanes,
    set up as a column and broadcast back along the lanes. -/
def weights (x0 : Vec Ideal S1x512x64 .f32) (x3 : Vec Ideal S1x2048x64 .f32) : FVec Ideal S512x2048 .f32 :=
  exp (subf (scores x0 x3)
    (broadcastTo S512x2048
      (shapeCast S512x1
        (multiReduction .maximumf [1] S512 (scores x0 x3) 0xFF800000#32 reduces_S512x2048_S512 (.inl rfl) rfl)
        shapeCasts_S512_S512x1)
      broadcasts_S512x1_S512x2048))

/-- The stored value is the weight–value contraction divided by the weights' lane sum (as a column broadcast along
    the 64 lanes), with the leading unit axis put back: the printed term, with the two shared blocks named. -/
theorem pay_eq (x0 : Vec Ideal S1x512x64 .f32) (x3 x6 : Vec Ideal S1x2048x64 .f32) :
    k0_pay1 (F := Ideal) x0 x3 x6
      = shapeCast S1x512x64
          (divf
            (matmul dot_S512x2048_S2048x64_S512x64_1_0_0_1_n_n none
              (truncf .bf16 (weights x0 x3) bitsLt_bf16_f32)
              (truncf .bf16 (shapeCast S2048x64 x6 shapeCasts_S1x2048x64_S2048x64) bitsLt_bf16_f32)
              (constant S512x64 .f32 0x00000000#32))
            (broadcastTo S512x64
              (shapeCast S512x1
                (multiReduction .add [1] S512 (weights x0 x3) 0x00000000#32 reduces_S512x2048_S512 (.inl rfl) rfl)
                shapeCasts_S512_S512x1)
              broadcasts_S512x1_S512x64))
          shapeCasts_S512x64_S1x512x64 := rfl

/-- A score of the block at `(r, k)` is the specification's score of key row `k` against query row `r`. -/
theorem scores_apply (x0 : Vec Ideal S1x512x64 .f32) (x3 : Vec Ideal S1x2048x64 .f32) (r : Fin 512) (k : Fin 2048) :
    scores x0 x3 (ix2 r k)
      = Cert.Attn.score (fun j => x0 (ix3 0 r j)) (fun k j => x3 (ix3 0 k j)) k := by
  unfold scores Cert.Attn.score
  refine (mulf_apply _ _ (ix2 r k)).trans ?_
  refine congrArg₂ (· * ·) ?_ rfl
  refine (qk_apply _ _ r k).trans ?_
  refine Finset.sum_congr rfl fun j _ => ?_
  refine congrArg₂ (· * ·) ?_ ?_
  · exact shapeCast_1ab_ab_apply x0 shapeCasts_S1x512x64_S512x64 r j
  · exact shapeCast_1ab_ab_apply x3 shapeCasts_S1x2048x64_S2048x64 k j

/-- A weight of the block at `(r, k)` is the specification's weight of key `k`: the exponential of its score minus
    the row's maximum. -/
theorem weights_apply (x0 : Vec Ideal S1x512x64 .f32) (x3 : Vec Ideal S1x2048x64 .f32) (r : Fin 512) (k : Fin 2048) :
    weights x0 x3 (ix2 r k)
      = Cert.Attn.weight (Cert.Attn.score (fun j => x0 (ix3 0 r j)) (fun k j => x3 (ix3 0 k j)))
          (Cert.Attn.rowMax (Cert.Attn.score (fun j => x0 (ix3 0 r j)) (fun k j => x3 (ix3 0 k j)))) k := by
  unfold weights Cert.Attn.weight Cert.Attn.rowMax
  show Ideal.exp (scores x0 x3 (ix2 r k) - _) = _
  refine congrArg Ideal.exp (congrArg₂ (· - ·) (scores_apply x0 x3 r k) ?_)
  refine (alongKeys_apply _ broadcasts_S512x1_S512x2048 r k).trans ?_
  refine (column_apply _ shapeCasts_S512_S512x1 r 0).trans ?_
  refine (laneMax_apply (scores x0 x3) reduces_S512x2048_S512 (.inl rfl) rfl r).trans ?_
  exact congrArg (fun f : Fin 2048 → EReal => (Finset.univ : Finset (Fin 2048)).fold max Cert.Attn.negInf f)
    (funext fun k' => scores_apply x0 x3 r k')

/-- THE STORED VALUE AT `(0, r, d)`: the weighted mean of value column `d` under query row `r`'s weights, the
    weighted sum divided once by the weights' total. -/
theorem pay_apply (x0 : Vec Ideal S1x512x64 .f32) (x3 x6 : Vec Ideal S1x2048x64 .f32) (r : Fin 512) (d : Fin 64) :
    k0_pay1 (F := Ideal) x0 x3 x6 (ix3 0 r d)
      = Cert.Attn.attnK (fun j => x0 (ix3 0 r j)) (fun k j => x3 (ix3 0 k j)) (fun k => x6 (ix3 0 k d)) := by
  rw [pay_eq]
  unfold Cert.Attn.attnK
  refine (shapeCast_ab_1ab_apply _ shapeCasts_S512x64_S1x512x64 0 r d).trans ?_
  refine (divf_apply _ _ (ix2 r d)).trans ?_
  refine congrArg₂ Ideal.div ?_ ?_
  · refine (pv_apply _ _ r d).trans ?_
    refine Finset.sum_congr rfl fun k _ => ?_
    refine congrArg₂ (· * ·) (weights_apply x0 x3 r k) ?_
    exact shapeCast_1ab_ab_apply x6 shapeCasts_S1x2048x64_S2048x64 k d
  · refine (alongFeatures_apply _ broadcasts_S512x1_S512x64 r d).trans ?_
    refine (column_apply _ shapeCasts_S512_S512x1 r 0).trans ?_
    refine (laneSum_apply (weights x0 x3) reduces_S512x2048_S512 (.inl rfl) rfl r).trans ?_
    exact Finset.sum_congr rfl fun k _ => weights_apply x0 x3 r k

end Cert.KernelIdeal.AttnPayload

end
-- ==== Proof.AttnWhole.lean ====
/-
  Attention over whole arrays of heads.

  For a query array `v0` and a key array `v1`, both of 64 heads × 2048 rows × 64 features, the entry at head `B`,
  row `r`, feature `d` is the single-row attention of query row `(B, r)` against all 2048 key rows of head `B`,
  with value column `d` of head `B` of the QUERY array (the values are the queries' own array).
-/
import proofs.«102888_j52518860096471_2_alg».proof.Proof.AttnSpec
import Idealize.ShloMosaic.Lib.ValueIdx

noncomputable section

namespace Cert.Attn

open Idealize.ShloMosaic Idealize.ShloMosaic.ValueIdx

/-- The attention output array: divide once, per query row. -/
def attnWhole (v0 v1 : (⟨3, ![64, 2048, 64]⟩ : Shape).Idx → EReal) : (⟨3, ![64, 2048, 64]⟩ : Shape).Idx → EReal := fun i =>
  attnK (fun j => v0 (ix3 (i 0) (i 1) j)) (fun k j => v1 (ix3 (i 0) k j)) (fun k => v0 (ix3 (i 0) k (i 2)))

theorem attnWhole_apply (v0 v1 : (⟨3, ![64, 2048, 64]⟩ : Shape).Idx → EReal) (B : Fin 64) (r : Fin 2048) (d : Fin 64) :
    attnWhole v0 v1 (ix3 B r d) = attnK (fun j => v0 (ix3 B r j)) (fun k j => v1 (ix3 B k j)) (fun k => v0 (ix3 B k d)) := rfl

end Cert.Attn

end
-- ==== Proof.AttnBlocks.lean ====
/-
  From the blocks the grid's points write back to the whole output array.

  The grid has 64 × 4 points; point `(b, q)` reads the 512 query rows `q·512 … q·512 + 511` of head `b`, all 2048
  key rows of head `b` of the second array and all 2048 value rows of head `b` of the first array, and writes back the
  512 × 64 output block at rows `q·512 …` of head `b`. What it writes back is the body's stored value of the three
  input blocks, which is, element by element, the attention of the whole arrays at the element's place in the
  output array. The output blocks tile the output array, so the array ends holding the attention everywhere.
-/
import proofs.«102888_j52518860096471_2_alg».proof.Proof.KernelIdealBody
import proofs.«102888_j52518860096471_2_alg».proof.Proof.AttnPayload
import proofs.«102888_j52518860096471_2_alg».proof.Proof.AttnWhole
import Idealize.ShloMosaic.Lib.Pipeline.Value

noncomputable section

namespace Cert.KernelIdeal.AttnBlocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's accesses start at the block's origin. -/
theorem origin : (![0, 0, 0] : Fin 3 → Nat) = fun _ => 0 := funext fun a => by fin_cases a <;> rfl

/-! ## The index maps over the grid -/

/-- The printed index maps, decided over the 256 points: point `t` is `(t / 4, t % 4)`; the output block and the
    query block are block `(t / 4, t % 4, 0)` of their arrays, the key block and the value block are block
    `(t / 4, 0, 0)` of theirs. -/
theorem index_facts : ∀ t : Fin cfg0.N,
    win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-! ## One point -/

/-- At one point: if the three loaded blocks are the arrays read at head `b` — the query block at rows
    `q·512 …`, the key and value blocks at all rows —, the stored value at a block index is the whole arrays'
    attention at the array index under it (head `b`, row `q·512 +` the block's row, the same column). -/
theorem point_eq (v0 v1 : S64x2048x64.Idx → EReal) (X0 : Vec Ideal S1x512x64 .f32) (X1 X2 : Vec Ideal S1x2048x64 .f32)
    (b q : Nat)
    (h0 : ∀ (y : S1x512x64.Idx) (i : S64x2048x64.Idx), (i 0).val = b → (i 1).val = q * 512 + (y 1).val → (i 2).val = (y 2).val →
      X0 y = v0 i)
    (h1 : ∀ (y : S1x2048x64.Idx) (i : S64x2048x64.Idx), (i 0).val = b → (i 1).val = (y 1).val → (i 2).val = (y 2).val →
      X1 y = v1 i)
    (h2 : ∀ (y : S1x2048x64.Idx) (i : S64x2048x64.Idx), (i 0).val = b → (i 1).val = (y 1).val → (i 2).val = (y 2).val →
      X2 y = v0 i)
    (y : S1x512x64.Idx) (i : S64x2048x64.Idx) (hi0 : (i 0).val = b) (hi1 : (i 1).val = q * 512 + (y 1).val)
    (hi2 : (i 2).val = (y 2).val) :
    k0_pay1 (F := Ideal) X0 X1 X2 y = Cert.Attn.attnWhole v0 v1 i := by
  obtain ⟨u, r, d, rfl⟩ : ∃ (u : Fin 1) (r : Fin 512) (d : Fin 64), y = ix3 u r d := ⟨y 0, y 1, y 2, eq_ix3 y⟩
  obtain rfl : u = 0 := Subsingleton.elim _ _
  refine (AttnPayload.pay_apply X0 X1 X2 r d).trans ?_
  have eq : (fun j : Fin 64 => X0 (ix3 0 r j)) = fun j => v0 (ix3 (i 0) (i 1) j) :=
    funext fun j => h0 _ _ hi0 hi1 rfl
  have ek : (fun (k : Fin 2048) (j : Fin 64) => X1 (ix3 0 k j)) = fun k j => v1 (ix3 (i 0) k j) :=
    funext fun k => funext fun j => h1 _ _ hi0 rfl rfl
  have ev : (fun k : Fin 2048 => X2 (ix3 0 k d)) = fun k => v0 (ix3 (i 0) k (i 2)) :=
    funext fun k => h2 _ _ hi0 rfl hi2
  rw [eq, ek, ev]
  rfl

/-! ## What a point writes back -/

/-- The query block at point `t` is the first array read at head `t / 4`, rows `(t % 4)·512 …`. -/
theorem queryBlock_apply (c : Dev nD) (t : Fin cfg0.N) (y : S1x512x64.Idx) (i : S64x2048x64.Idx)
    (hi0 : (i 0).val = t.val / 4) (hi1 : (i 1).val = t.val % 4 * 512 + (y 1).val) (hi2 : (i 2).val = (y 2).val) :
    (iblk m c 0 t : Vec Ideal S1x512x64 .f32) y = (V m c main_v0 : S64x2048x64.Idx → EReal) i := by
  obtain ⟨_, _, _, e0, e1, e2, _⟩ := index_facts t
  unfold iblk
  rw [View.read_apply]
  show V m c main_v0 _ = V m c main_v0 _
  congr 1
  funext a
  apply Fin.ext
  have hy0 : (y 0).val < 1 := (y 0).isLt
  match a with
  | ⟨0, _⟩ => show win0_0.index t (0 : Fin 3) * 1 + 1 * (y 0).val = (i 0).val; rw [e0, hi0]; omega
  | ⟨1, _⟩ => show win0_0.index t (1 : Fin 3) * 512 + 1 * (y 1).val = (i 1).val; rw [e1, hi1]; omega
  | ⟨2, _⟩ => show win0_0.index t (2 : Fin 3) * 64 + 1 * (y 2).val = (i 2).val; rw [e2, hi2]; omega

/-- The key block at point `t` is the second array read at head `t / 4`, all rows. -/
theorem keyBlock_apply (c : Dev nD) (t : Fin cfg0.N) (y : S1x2048x64.Idx) (i : S64x2048x64.Idx)
    (hi0 : (i 0).val = t.val / 4) (hi1 : (i 1).val = (y 1).val) (hi2 : (i 2).val = (y 2).val) :
    (iblk m c 1 t : Vec Ideal S1x2048x64 .f32) y = (V m c main_v1 : S64x2048x64.Idx → EReal) i := by
  obtain ⟨_, _, _, _, _, _, e0, e1, e2, _⟩ := index_facts t
  unfold iblk
  rw [View.read_apply]
  show V m c main_v1 _ = V m c main_v1 _
  congr 1
  funext a
  apply Fin.ext
  have hy0 : (y 0).val < 1 := (y 0).isLt
  match a with
  | ⟨0, _⟩ => show win0_1.index t (0 : Fin 3) * 1 + 1 * (y 0).val = (i 0).val; rw [e0, hi0]; omega
  | ⟨1, _⟩ => show win0_1.index t (1 : Fin 3) * 2048 + 1 * (y 1).val = (i 1).val; rw [e1, hi1]; omega
  | ⟨2, _⟩ => show win0_1.index t (2 : Fin 3) * 64 + 1 * (y 2).val = (i 2).val; rw [e2, hi2]; omega

/-- The value block at point `t` is the first array read at head `t / 4`, all rows. -/
theorem valueBlock_apply (c : Dev nD) (t : Fin cfg0.N) (y : S1x2048x64.Idx) (i : S64x2048x64.Idx)
    (hi0 : (i 0).val = t.val / 4) (hi1 : (i 1).val = (y 1).val) (hi2 : (i 2).val = (y 2).val) :
    (iblk m c 2 t : Vec Ideal S1x2048x64 .f32) y = (V m c main_v0 : S64x2048x64.Idx → EReal) i := by
  obtain ⟨_, _, _, _, _, _, _, _, _, e0, e1, e2⟩ := index_facts t
  unfold iblk
  rw [View.read_apply]
  show V m c main_v0 _ = V m c main_v0 _
  congr 1
  funext a
  apply Fin.ext
  have hy0 : (y 0).val < 1 := (y 0).isLt
  match a with
  | ⟨0, _⟩ => show win0_2.index t (0 : Fin 3) * 1 + 1 * (y 0).val = (i 0).val; rw [e0, hi0]; omega
  | ⟨1, _⟩ => show win0_2.index t (1 : Fin 3) * 2048 + 1 * (y 1).val = (i 1).val; rw [e1, hi1]; omega
  | ⟨2, _⟩ => show win0_2.index t (2 : Fin 3) * 64 + 1 * (y 2).val = (i 2).val; rw [e2, hi2]; omega

/-- WHAT POINT `t` WRITES BACK is block `t` of the whole arrays' attention. -/
theorem flushed_eq (c : Dev nD) (t : Fin cfg0.N) :
    (dats m 0 c).flushed 3 t
      = ((cfg0.win 3).blk t).view.read (Elt Ideal) (Cert.Attn.attnWhole (V m c main_v0) (V m c main_v1)) := by
  show (cfg0.win 3).cut (grid0.coords t) ((dats m 0 c).after 3 t) = _
  rw [after0_3]
  unfold outBlk
  rw [View.canon_unit_zero origin]
  simp only [View.ld_unit_zero (S := S1x512x64) origin, View.ld_unit_zero (S := S1x2048x64) origin]
  obtain ⟨e0, e1, e2, _⟩ := index_facts t
  funext j
  rw [View.read_apply]
  refine point_eq (V m c main_v0) (V m c main_v1) (iblk m c 0 t) (iblk m c 1 t) (iblk m c 2 t) (t.val / 4) (t.val % 4)
    (fun y i a b d => queryBlock_apply m c t y i a b d) (fun y i a b d => keyBlock_apply m c t y i a b d)
    (fun y i a b d => valueBlock_apply m c t y i a b d) _ _ ?_ ?_ ?_
  · show win0_3.index t (0 : Fin 3) * 1 + 1 * (j 0).val = t.val / 4
    have hj : (j 0).val < 1 := (j 0).isLt
    rw [e0]; omega
  · show win0_3.index t (1 : Fin 3) * 512 + 1 * (j 1).val = t.val % 4 * 512 + (j 1).val
    rw [e1]; omega
  · show win0_3.index t (2 : Fin 3) * 64 + 1 * (j 2).val = (j 2).val
    rw [e2]; omega

/-! ## The blocks tile the array -/

/-- An index of the output array is in point `t`'s block iff each coordinate is in the block's range on its axis. -/
theorem mem_block (t : Fin cfg0.N) (i : S64x2048x64.Idx) :
    i ∈ ((cfg0.win 3).blk t).view.set
      ↔ ∀ a : Fin 3, win0_3.index t a * S1x512x64.size a ≤ (i a).val
          ∧ (i a).val < win0_3.index t a * S1x512x64.size a + S1x512x64.size a := by
  show i ∈ ((View.whole main_v2).slice (win0_3.rect t)).set ↔ _
  rw [View.set_slice_whole, Rect.mem_set_unit]
  exact Iff.rfl

/-- Every index of the output array is in the block of the point `(head, row / 512)`, which writes back. -/
theorem covered (i : S64x2048x64.Idx) :
    ∃ t : Fin cfg0.N, (cfg0.win 3).flush t = true ∧ i ∈ ((cfg0.win 3).blk t).view.set := by
  have hN : cfg0.N = 256 := N_0
  have hi0 : (i 0).val < 64 := (i 0).isLt
  have hi1 : (i 1).val < 2048 := (i 1).isLt
  have hi2 : (i 2).val < 64 := (i 2).isLt
  refine ⟨⟨(i 0).val * 4 + (i 1).val / 512, by rw [hN]; omega⟩, flush0_3 _, ?_⟩
  rw [mem_block]
  obtain ⟨e0, e1, e2, _⟩ := index_facts ⟨(i 0).val * 4 + (i 1).val / 512, by rw [hN]; omega⟩
  have d0 : ((i 0).val * 4 + (i 1).val / 512) / 4 = (i 0).val := by omega
  have d1 : ((i 0).val * 4 + (i 1).val / 512) % 4 = (i 1).val / 512 := by omega
  intro a
  match a with
  | ⟨0, _⟩ =>
    show win0_3.index _ (0 : Fin 3) * 1 ≤ (i 0).val ∧ (i 0).val < win0_3.index _ (0 : Fin 3) * 1 + 1
    rw [e0]; show (((i 0).val * 4 + (i 1).val / 512) / 4) * 1 ≤ _ ∧ _ < (((i 0).val * 4 + (i 1).val / 512) / 4) * 1 + 1
    rw [d0]; omega
  | ⟨1, _⟩ =>
    show win0_3.index _ (1 : Fin 3) * 512 ≤ (i 1).val ∧ (i 1).val < win0_3.index _ (1 : Fin 3) * 512 + 512
    rw [e1]; show (((i 0).val * 4 + (i 1).val / 512) % 4) * 512 ≤ _ ∧ _ < (((i 0).val * 4 + (i 1).val / 512) % 4) * 512 + 512
    rw [d1]; omega
  | ⟨2, _⟩ =>
    show win0_3.index _ (2 : Fin 3) * 64 ≤ (i 2).val ∧ (i 2).val < win0_3.index _ (2 : Fin 3) * 64 + 64
    rw [e2]; omega

/-! ## The output array after the run -/

/-- THE OUTPUT ARRAY, once every point has written back, is the attention of the two arrays the region was entered
    with: the first (queries and values) and the second (keys). -/
theorem final_out (c : Dev nD) :
    (dats (F := Ideal) m 0 c).arrAt 3 cfg0.N = Cert.Attn.attnWhole (V m c main_v0) (V m c main_v1) :=
  (dats m 0 c).arrAt_eq_of_cover 3 (Cert.Attn.attnWhole (V m c main_v0) (V m c main_v1))
    (fun t _ => flushed_eq m c t) covered

end Cert.KernelIdeal.AttnBlocks

end
-- ==== Proof.AttnLaw.lean ====
/-
  The two groupings of single-pass attention agree on real inputs.

  With every entry of the query row, the key rows and the value column a real number, every scaled score is a
  real number; the maximum of 2048 real scores taken from −∞ is one of them, hence real, and taking it once
  more against −∞ changes nothing; every weight `exp (s k − m)` is a positive real, so the weights' total `T`
  is a positive real. Division by `T` is then multiplication by `1 / T`, the zero word is `0`, and the law is
  `(∑ k, w k · v k) · (1 / T) = ∑ k, (w k · (1 / T)) · v k` in ℝ.
-/
import proofs.«102888_j52518860096471_2_alg».proof.Proof.AttnSpec

noncomputable section

namespace Cert.Attn.Law

open Idealize.ShloMosaic Cert.Attn

/-- A finite sum of reals read as extended reals is the real sum read as an extended real. -/
theorem coe_sum {ι : Type} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The word `0xFF800000` is −∞. -/
theorem negInf_eq : negInf = ⊥ := by simp [negInf, Ideal.ofBits, Ideal.ieee]

/-- The scale word denotes a real number. -/
theorem scale_real : ∃ c : ℝ, scale = (c : EReal) := by
  refine ⟨3, ?_⟩
  simp [scale, Ideal.ofBits, Ideal.ieee, -EReal.coe_mul]
  norm_num

/-- The maximum, from −∞, of 2048 reals is a real. -/
theorem rowMax_real (sr : Fin 2048 → ℝ) : ∃ m : ℝ, rowMax (fun k => (sr k : EReal)) = (m : EReal) := by
  have hlt : rowMax (fun k => (sr k : EReal)) < ⊤ := by
    unfold rowMax
    rw [Finset.fold_max_lt]
    exact ⟨by rw [negInf_eq]; exact bot_lt_top, fun k _ => EReal.coe_lt_top _⟩
  have hgt : ⊥ < rowMax (fun k => (sr k : EReal)) := by
    refine lt_of_lt_of_le (EReal.bot_lt_coe (sr 0)) ?_
    unfold rowMax
    rw [Finset.le_fold_max]
    exact Or.inr ⟨0, Finset.mem_univ _, le_rfl⟩
  exact ⟨_, (EReal.coe_toReal hlt.ne hgt.ne').symm⟩

/-- Dividing the weighted sum once by the total weight, or normalising each weight first: the same number,
    when all inputs are real. -/
theorem attn_law (q : Fin 64 → EReal) (K : Fin 2048 → Fin 64 → EReal) (v : Fin 2048 → EReal)
    (hq : ∀ j, ∃ a : ℝ, q j = (a : EReal)) (hK : ∀ k j, ∃ a : ℝ, K k j = (a : EReal))
    (hv : ∀ k, ∃ a : ℝ, v k = (a : EReal)) :
    Cert.Attn.attnK q K v = Cert.Attn.attnR q K v := by
  choose qr hqr using hq
  choose Kr hKr using hK
  choose vr hvr using hv
  obtain ⟨c, hc⟩ := scale_real
  -- every score is a real
  have hsf : score q K = fun k => (((∑ j, qr j * Kr k j) * c : ℝ) : EReal) := by
    funext k
    unfold score
    rw [hc]
    simp only [hqr, hKr, ← EReal.coe_mul, coe_sum]
  -- so is their maximum, and −∞ against it changes nothing
  obtain ⟨m, hm⟩ := rowMax_real (fun k => (∑ j, qr j * Kr k j) * c)
  have hmax : max negInf (rowMax (score q K)) = rowMax (score q K) := by
    rw [negInf_eq]; exact max_bot_left _
  -- every weight is a positive real
  have hw : ∀ k, weight (score q K) (rowMax (score q K)) k
      = ((Real.exp ((∑ j, qr j * Kr k j) * c - m) : ℝ) : EReal) := by
    intro k
    unfold weight
    rw [hsf, hm, ← EReal.coe_sub]
    rfl
  -- the total is a positive real
  have hT : (∑ k : Fin 2048, Real.exp ((∑ j, qr j * Kr k j) * c - m)) ≠ 0 :=
    (Finset.sum_pos (fun k _ => Real.exp_pos _) Finset.univ_nonempty).ne'
  unfold attnK attnR
  rw [hmax, Ideal.ofBits_zero_f32, zero_add]
  simp only [hw, hvr, coe_sum, Ideal.div_coe hT, ← EReal.coe_mul]
  rw [Finset.sum_mul]
  exact congrArg _ (Finset.sum_congr rfl fun k _ => by ring)

end Cert.Attn.Law

end
-- ==== Proof.AttnRef.lean ====
/-
  The reference program, read at one output element, is the normalise-first grouping of attention.

  The reference forms all scores of a (batch, head) by a contraction over the 64 features and scales them by 3, takes
  each row's maximum from −∞ and once more against −∞, exponentiates the differences, sums each row onto a zero,
  divides every weight by its row's total, and contracts the normalised weights with the value rows. Each stage is
  read at an index with explicit coordinates; the row maximum, a fold over the last axis, is read by hand.
-/
import proofs.«102888_j52518860096471_2_alg».proof.Proof.Gen.ReferenceIdeal.Read
import proofs.«102888_j52518860096471_2_alg».proof.Proof.AttnSpec

noncomputable section

namespace Cert.Attn.Ref

open Cert.ReferenceIdeal Cert.ReferenceIdeal.Gen Cert.ReferenceIdeal.Read Idealize.ShloMosaic Idealize.ShloMosaic.ValueIdx
open Cert.Attn

/-- The scaled score of query row `p` against key row `k`. -/
theorem scores_apply (a0 a1 : (⟨S4x16x2048x64, .f32⟩ : BufTy).Contents (Elt Ideal)) (b : Fin 4) (h : Fin 16)
    (p k : Fin 2048) :
    val_main_v2 (F := Ideal) a0 a1 (ix4 b h p k)
      = score (fun j => a0 (ix4 b h p j)) (fun k j => a1 (ix4 b h k j)) k := by
  rw [val_main_v2_apply, val_main_v0_apply, val_main_v1_apply, val_main_cst_apply]
  have el : ∀ j : Fin 64, lidx_main_v0 (ix4 b h p k) j = ix4 b h p j := fun j => funext fun a => Fin.ext (by
    match a with | ⟨0, _⟩ => rfl | ⟨1, _⟩ => rfl | ⟨2, _⟩ => rfl | ⟨3, _⟩ => rfl)
  have er : ∀ j : Fin 64, ridx_main_v0 (ix4 b h p k) j = ix4 b h k j := fun j => funext fun a => Fin.ext (by
    match a with | ⟨0, _⟩ => rfl | ⟨1, _⟩ => rfl | ⟨2, _⟩ => rfl | ⟨3, _⟩ => rfl)
  simp only [el, er]
  rfl

/-- The maximum of row `p`'s scores from −∞: the fold over the last axis. -/
theorem rowMax_apply (a0 a1 : (⟨S4x16x2048x64, .f32⟩ : BufTy).Contents (Elt Ideal)) (b : Fin 4) (h : Fin 16)
    (p : Fin 2048) :
    val_main_v3 (F := Ideal) a0 a1 (ix3 b h p)
      = rowMax (fun k => val_main_v2 (F := Ideal) a0 a1 (ix4 b h p k)) := by
  unfold val_main_v3
  generalize val_main_v2 (F := Ideal) a0 a1 = y
  have hR : S4x16x2048x2048.Reduces [3] S4x16x2048 := by decide
  rw [Host.reduce_eq_fold_single (FloatOps.maximumf (F := Ideal) (φ := .f32)) y _ reducesTo_S4x16x2048x2048_S4x16x2048_d3 hR h_S_]
  have hf : (y ∘ hR.lift (ix3 b h p)) = fun k : Fin 2048 => y (ix4 b h p k) := funext fun k => congrArg y (funext fun a => Fin.ext (by
    match a with | ⟨0, _⟩ => rfl | ⟨1, _⟩ => rfl | ⟨2, _⟩ => rfl | ⟨3, _⟩ => rfl))
  exact congrArg (fun f => Finset.fold max (Ideal.ofBits .f32 0xFF800000#32) f (Finset.univ : Finset (Fin 2048))) hf

/-- The query row of output row `p` and the key rows of one (batch, head). -/
abbrev qRow (a0 : (⟨S4x16x2048x64, .f32⟩ : BufTy).Contents (Elt Ideal)) (b : Fin 4) (h : Fin 16) (p : Fin 2048) :
    Fin 64 → EReal := fun j => a0 (ix4 b h p j)
abbrev kRows (a1 : (⟨S4x16x2048x64, .f32⟩ : BufTy).Contents (Elt Ideal)) (b : Fin 4) (h : Fin 16) :
    Fin 2048 → Fin 64 → EReal := fun k j => a1 (ix4 b h k j)

/-- The row maximum taken once more against −∞. -/
theorem rowMax2_apply (a0 a1 : (⟨S4x16x2048x64, .f32⟩ : BufTy).Contents (Elt Ideal)) (b : Fin 4) (h : Fin 16)
    (p : Fin 2048) :
    val_main_v5 (F := Ideal) a0 a1 (ix3 b h p)
      = max negInf (rowMax (score (qRow a0 b h p) (kRows a1 b h))) := by
  rw [val_main_v5_apply, val_main_v4_apply, val_main_cst_1_apply, rowMax_apply]
  simp only [scores_apply]
  rfl

/-- The weight of key row `k` for query row `p`: the exponential of the score less the row's maximum. -/
theorem weight_apply (a0 a1 : (⟨S4x16x2048x64, .f32⟩ : BufTy).Contents (Elt Ideal)) (b : Fin 4) (h : Fin 16)
    (p k : Fin 2048) :
    val_main_v9 (F := Ideal) a0 a1 (ix4 b h p k)
      = weight (score (qRow a0 b h p) (kRows a1 b h))
          (max negInf (rowMax (score (qRow a0 b h p) (kRows a1 b h)))) k := by
  rw [val_main_v9_apply, val_main_v8_apply, val_main_v7_apply, val_main_v6_apply, scores_apply]
  have e : idx_main_v6 (idx_main_v7 (ix4 b h p k)) = ix3 b h p := funext fun a => Fin.ext (by
    match a with | ⟨0, _⟩ => rfl | ⟨1, _⟩ => rfl | ⟨2, _⟩ => rfl)
  rw [e, rowMax2_apply]
  rfl

/-- The total weight of query row `p`, added onto the zero word. -/
theorem total_apply (a0 a1 : (⟨S4x16x2048x64, .f32⟩ : BufTy).Contents (Elt Ideal)) (b : Fin 4) (h : Fin 16)
    (p : Fin 2048) :
    val_main_v10 (F := Ideal) a0 a1 (ix3 b h p)
      = Ideal.ofBits .f32 0x00000000#32 + ∑ k' : Fin 2048, weight (score (qRow a0 b h p) (kRows a1 b h))
          (max negInf (rowMax (score (qRow a0 b h p) (kRows a1 b h)))) k' := by
  rw [val_main_v10_apply, val_main_cst_2_apply]
  have e : ∀ k' : Fin 2048, idx_main_v10 (ix3 b h p) k' = ix4 b h p k' := fun k' => funext fun a => Fin.ext (by
    match a with | ⟨0, _⟩ => rfl | ⟨1, _⟩ => rfl | ⟨2, _⟩ => rfl | ⟨3, _⟩ => rfl)
  simp only [e, weight_apply]
  rfl

/-- The normalised weight: the weight over the row's total. -/
theorem normalised_apply (a0 a1 : (⟨S4x16x2048x64, .f32⟩ : BufTy).Contents (Elt Ideal)) (b : Fin 4) (h : Fin 16)
    (p k : Fin 2048) :
    val_main_v13 (F := Ideal) a0 a1 (ix4 b h p k)
      = Ideal.div (weight (score (qRow a0 b h p) (kRows a1 b h))
            (max negInf (rowMax (score (qRow a0 b h p) (kRows a1 b h)))) k)
          (Ideal.ofBits .f32 0x00000000#32 + ∑ k' : Fin 2048, weight (score (qRow a0 b h p) (kRows a1 b h))
            (max negInf (rowMax (score (qRow a0 b h p) (kRows a1 b h)))) k') := by
  rw [val_main_v13_apply, val_main_v12_apply, val_main_v11_apply, weight_apply]
  have e : idx_main_v11 (idx_main_v12 (ix4 b h p k)) = ix3 b h p := funext fun a => Fin.ext (by
    match a with | ⟨0, _⟩ => rfl | ⟨1, _⟩ => rfl | ⟨2, _⟩ => rfl)
  rw [e, total_apply]
  rfl

/-- The reference's result at (b, h, p, d): the normalised weights of query row `p` against column `d` of the
    value rows, which are the first argument's rows again. -/
theorem ref_apply (a0 a1 : (⟨S4x16x2048x64, .f32⟩ : BufTy).Contents (Elt Ideal)) (b : Fin 4) (h : Fin 16)
    (p : Fin 2048) (d : Fin 64) :
    Cert.ReferenceIdeal.Read.val_main_v14 (F := Ideal) a0 a1 (ix4 b h p d)
      = Cert.Attn.attnR (fun j => a0 (ix4 b h p j)) (fun k j => a1 (ix4 b h k j)) (fun k => a0 (ix4 b h k d)) := by
  rw [val_main_v14_apply]
  have el : ∀ k : Fin 2048, lidx_main_v14 (ix4 b h p d) k = ix4 b h p k := fun k => funext fun a => Fin.ext (by
    match a with | ⟨0, _⟩ => rfl | ⟨1, _⟩ => rfl | ⟨2, _⟩ => rfl | ⟨3, _⟩ => rfl)
  have er : ∀ k : Fin 2048, ridx_main_v14 (ix4 b h p d) k = ix4 b h k d := fun k => funext fun a => Fin.ext (by
    match a with | ⟨0, _⟩ => rfl | ⟨1, _⟩ => rfl | ⟨2, _⟩ => rfl | ⟨3, _⟩ => rfl)
  simp only [el, er, normalised_apply]
  rfl

end Cert.Attn.Ref

end
-- ==== Proof.AttnBridge.lean ====
/-
  The two reshapes around the attention region, and the joined bridge.

  The kernel program views each [4, 16, 2048, 64] argument as 64 heads of [2048, 64] before its region and views the
  [64, 2048, 64] result as [4, 16, 2048, 64] after it. A reshape keeps the row-major position, so head `16·b + hd` of
  the flat view is (batch `b`, head `hd`) of the argument. Read through both reshapes, the divide-once attention of
  every head is, element by element, the reference's normalise-first attention, whenever all inputs are real.
-/
import proofs.«102888_j52518860096471_2_alg».proof.Proof.AttnWhole
import proofs.«102888_j52518860096471_2_alg».proof.Proof.AttnLaw
import proofs.«102888_j52518860096471_2_alg».proof.Proof.AttnRef
import Idealize.ShloMosaic.Lib.Pipeline.Value
import Idealize.ShloMosaic.Lib.ValueIdx

noncomputable section

namespace Cert.Attn.Bridge

open Idealize.ShloMosaic Idealize.ShloMosaic.ValueIdx

/-- Viewing [4, 16, 2048, 64] as [64, 2048, 64]: head `16·b + hd`, row `r`, feature `j` is the entry (b, hd, r, j). -/
theorem cast_in {α : Type} (x : (⟨4, ![4, 16, 2048, 64]⟩ : Shape).Idx → α)
    (h : (⟨4, ![4, 16, 2048, 64]⟩ : Shape).ShapeCasts ⟨3, ![64, 2048, 64]⟩)
    (b : Fin 4) (hd : Fin 16) (r : Fin 2048) (j : Fin 64) :
    shapeCast ⟨3, ![64, 2048, 64]⟩ x h (ix3 (⟨16 * b.val + hd.val, by omega⟩ : Fin 64) r j) = x (ix4 b hd r j) :=
  shapeCast_apply x h _ _ (by
    rw [Shape.rowMajor_val_four, Shape.rowMajor_val_three]
    show ((b.val * 16 + hd.val) * 2048 + r.val) * 64 + j.val = ((16 * b.val + hd.val) * 2048 + r.val) * 64 + j.val
    omega)

/-- Viewing [64, 2048, 64] as [4, 16, 2048, 64]: the entry (b, hd, r, d) is head `16·b + hd`, row `r`, feature `d`. -/
theorem cast_out {α : Type} (y : (⟨3, ![64, 2048, 64]⟩ : Shape).Idx → α)
    (h : (⟨3, ![64, 2048, 64]⟩ : Shape).ShapeCasts ⟨4, ![4, 16, 2048, 64]⟩)
    (b : Fin 4) (hd : Fin 16) (r : Fin 2048) (d : Fin 64) :
    shapeCast ⟨4, ![4, 16, 2048, 64]⟩ y h (ix4 b hd r d) = y (ix3 (⟨16 * b.val + hd.val, by omega⟩ : Fin 64) r d) :=
  shapeCast_apply y h _ _ (by
    rw [Shape.rowMajor_val_four, Shape.rowMajor_val_three]
    show ((16 * b.val + hd.val) * 2048 + r.val) * 64 + d.val = ((b.val * 16 + hd.val) * 2048 + r.val) * 64 + d.val
    omega)

open Cert.Attn

/-- Through both reshapes, the divide-once attention of all 64 heads is the reference's result on real inputs. -/
theorem bridge (a0 a1 : (⟨4, ![4, 16, 2048, 64]⟩ : Shape).Idx → EReal)
    (h0 : ∀ i, ∃ r : ℝ, a0 i = (r : EReal)) (h1 : ∀ i, ∃ r : ℝ, a1 i = (r : EReal))
    (hin0 hin1 : (⟨4, ![4, 16, 2048, 64]⟩ : Shape).ShapeCasts ⟨3, ![64, 2048, 64]⟩)
    (hout : (⟨3, ![64, 2048, 64]⟩ : Shape).ShapeCasts ⟨4, ![4, 16, 2048, 64]⟩) :
    shapeCast ⟨4, ![4, 16, 2048, 64]⟩
        (attnWhole (shapeCast ⟨3, ![64, 2048, 64]⟩ a0 hin0) (shapeCast ⟨3, ![64, 2048, 64]⟩ a1 hin1)) hout
      = Cert.ReferenceIdeal.Read.val_main_v14 (F := Ideal) a0 a1 := by
  funext i
  obtain ⟨b, hd, p, d, rfl⟩ : ∃ (b : Fin 4) (hd : Fin 16) (p : Fin 2048) (d : Fin 64), i = ix4 b hd p d :=
    ⟨i 0, i 1, i 2, i 3, eq_ix4 i⟩
  rw [cast_out, attnWhole_apply]
  simp only [cast_in]
  exact (Law.attn_law _ _ _ (fun j => h0 _) (fun k j => h1 _) (fun k => h0 _)).trans
    (Ref.ref_apply a0 a1 b hd p d).symm

end Cert.Attn.Bridge

end
-- ==== Proof.KernelIdealValue.lean ====
/-
  The kernel program's result is the reference's, on real inputs.

  The program's last buffer is the region's result buffer re-read as [4, 16, 2048, 64]; the region's result buffer
  ends as the divide-once attention of all 64 heads of the two flat buffers the region finds; those are the two
  arguments re-read as 64 heads. Through the two reshapes that is, element by element, the reference's
  normalise-first attention of the two arguments, whenever every entry of both is a real number.
-/
import proofs.«102888_j52518860096471_2_alg».proof.Proof.KernelIdealRun
import proofs.«102888_j52518860096471_2_alg».proof.Proof.KernelIdealHost
import proofs.«102888_j52518860096471_2_alg».proof.Proof.AttnBlocks
import proofs.«102888_j52518860096471_2_alg».proof.Proof.AttnBridge

noncomputable section

namespace Cert.KernelIdeal.ValueJoin

open Cert.KernelIdeal Cert.KernelIdeal.Gen Cert.KernelIdeal.Hand
open Idealize.ShloMosaic Idealize.ShloMosaic.TcCoe Idealize.SL.Sem

/-- On a core whose two arguments hold only real numbers, the program's result is the reference's last stage of
    the two arguments. -/
theorem result_eq (m : (ℓ : Loc nD τ sig) → Buf (Elt Ideal) ℓ) (c : Dev nD)
    (h0 : ∀ i, ∃ r : ℝ, m ((c : Thread nD τ).loc main_arg0) i = (r : EReal))
    (h1 : ∀ i, ∃ r : ℝ, m ((c : Thread nD τ).loc main_arg1) i = (r : EReal)) :
    Cert.KernelIdeal.Hand.result (F := Ideal) m c
      = Cert.ReferenceIdeal.Read.val_main_v14 (F := Ideal) (m ((c : Thread nD τ).loc main_arg0))
          (m ((c : Thread nD τ).loc main_arg1)) := by
  unfold result
  rw [HostRead.last_read, exitVal_v2, AttnBlocks.final_out, HostRead.entry_v0, HostRead.entry_v1]
  exact Cert.Attn.Bridge.bridge _ _ h0 h1 _ _ _

end Cert.KernelIdeal.ValueJoin

end
-- ==== Proof.AttnFinite.lean ====
/-
  Finite inputs are real numbers.

  The precondition compares `|x|` with +∞ at every entry of both arguments and takes the conjunction of all the
  answers. If the conjunction is 1, every comparison is 1; and an extended real whose absolute value
  `max x (−x)` lies strictly below +∞ is neither +∞ nor −∞, hence a real number.
-/
import proofs.«102888_j52518860096471_2_alg».proof.Defs
import Idealize.ShloMosaic.Lib.ReduceAll
import Idealize.ShloMosaic.Lib.ValueIdx

noncomputable section

namespace Cert.Attn.Finite

open Idealize.ShloMosaic

/-- A rank-0 shape has one index. -/
instance : Subsingleton Cert.Pre_finite_inputs.S_.Idx := ⟨fun a b => funext fun d => d.elim0⟩

/-- An extended real whose absolute value compares below the word of +∞ is a real number. -/
theorem real_of_abs_lt_inf (x : EReal)
    (e : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at e
  induction x using EReal.rec with
  | bot => exfalso; simp [Ideal.cmp] at e
  | coe a => exact ⟨a, rfl⟩
  | top => exfalso; simp [Ideal.cmp] at e

/-- Under the precondition every entry of both arguments is a real number. -/
theorem finite_of_pre [Cert.Pre_finite_inputs.Facts]
    (x1 x2 : (⟨Cert.Pre_finite_inputs.S4x16x2048x64, .f32⟩ : BufTy).Contents (Elt Ideal))
    (h : Cert.Pre_finite_inputs.fn (F := Ideal) x1 x2 = fun _ => 1#1) :
    (∀ i, ∃ a : ℝ, x1 i = (a : EReal)) ∧ (∀ i, ∃ a : ℝ, x2 i = (a : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_inf (x1 i) (Host.reduce_andi_all _ _ _ _ _ h1 i)
  · exact real_of_abs_lt_inf (x2 i) (Host.reduce_andi_all _ _ _ _ _ h2 i)

end Cert.Attn.Finite

end
-- ==== Proof.lean ====
/-
  The certificate of a single-pass attention kernel against its jnp reference, over the extended reals.

  Both programs compute, for each of the 64 (batch, head) pairs and each of the 2048 query rows, the softmax-weighted
  mean of the value rows: with scores `s_k = 3·⟨q, K_k⟩`, maximum `m = max_k s_k` and weights `w_k = exp (s_k − m)`,
  the kernel forms `(∑_k w_k·v_k) / (∑_k w_k)` — one division after the second product — while the reference forms
  `∑_k (w_k / ∑ w)·v_k`, normalising before it. The queries and the values are the same argument. With every input
  finite, every score is a real, the maximum is a real, every weight is a positive real and so is their total; then
  the two groupings are the same real number. That law is the only place the precondition is used.

  The kernel runs on a 64 × 4 grid, one head and one block of 512 query rows per point, the key and value blocks
  being the whole head. Two of its windows read one array; the array's share is dealt between them, and since both
  only read, the frame — the program runs to the end, nothing faults, both arguments end as launched — holds for the
  printed program at the word level and for its idealization alike. The idealization rewrote nothing, so there is
  nothing to preserve. The reference's frame is its run with the result dropped.

  For the value claim: the output array after the run is, block by block, the payload of the loaded blocks; read at
  an index that is the single-row attention of the index's query row; the reshapes before and after the region only
  rename indices (head `B = 16·b + h`); and the reference's result read at the same index is the other grouping.
-/
import proofs.«102888_j52518860096471_2_alg».proof.Defs
import proofs.«102888_j52518860096471_2_alg».proof.Proof.Gen.Kernel
import proofs.«102888_j52518860096471_2_alg».proof.Proof.Gen.KernelIdeal
import proofs.«102888_j52518860096471_2_alg».proof.Proof.Gen.ReferenceIdeal
import proofs.«102888_j52518860096471_2_alg».proof.Proof.Gen.ReferenceIdeal.Run
import proofs.«102888_j52518860096471_2_alg».proof.Proof.Gen.ReferenceIdeal.Read
import proofs.«102888_j52518860096471_2_alg».proof.Proof.Gen.Pre_finite_inputs
import proofs.«102888_j52518860096471_2_alg».proof.Proof.KernelRun
import proofs.«102888_j52518860096471_2_alg».proof.Proof.KernelIdealRun
import proofs.«102888_j52518860096471_2_alg».proof.Proof.KernelIdealValue
import proofs.«102888_j52518860096471_2_alg».proof.Proof.AttnFinite
import Idealize.ShloMosaic.Adequacy
import Idealize.ShloMosaic.Init

noncomputable section

namespace Cert.Proof

open Idealize.ShloMosaic Idealize.ShloMosaic.TcCoe Idealize.SL.Sem

/-- The printed program runs to the end and leaves both arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a straight line of host operations: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the same result array: the kernel's is
    the last reshape of its output array, which index by index is the divide-once attention of the arguments; the
    reference's is the normalise-first attention of the same arguments; finite inputs make the two one number. -/
theorem algebraic : Cert.algebraic_KernelIdeal_ReferenceIdeal := by
  intro m ρ m' ρ' hpre hagree
  refine ⟨fun c => Cert.KernelIdeal.Hand.result (F := Ideal) m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq (F := Ideal) _ _).trans ?_
  rw [(hagree c).1, (hagree c).2]
  obtain ⟨h0, h1⟩ := Cert.Attn.Finite.finite_of_pre _ _ (hpre c)
  exact (Cert.KernelIdeal.ValueJoin.result_eq m c h0 h1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
